-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64 .f32) (main_arg6 : FVec F S64x16 .f32) (main_arg7 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S1x16 : Shape := ⟨2, ![1, 16]⟩
abbrev S50000x16 : Shape := ⟨2, ![50000, 16]⟩
abbrev S5000x16 : Shape := ⟨2, ![5000, 16]⟩
abbrev S5000 : Shape := ⟨1, ![5000]⟩
abbrev S5000x1 : Shape := ⟨2, ![5000, 1]⟩

abbrev nBuf : Space → Nat
  | .hbm => 89
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x64, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .f32⟩
  | .hbm, ⟨61, _⟩ => ⟨S850000x1, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S1x16, .f32⟩
  | .hbm, ⟨88, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x16.size a ≤ S64x16.size a
  hwx2_2 : ∀ i : grid2.Coords, EltTy.bits .f32 = 32 ∨ (Rect.block (s := S64x16) S64x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S50000x16.size a
  hwx2_4 : ∀ i : grid2.Coords, EltTy.bits .f32 = 32 ∨ (Rect.block (s := S50000x16) S5000x16.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x16 : Shape := ⟨2, ![50000, 16]⟩
abbrev S1x16 : Shape := ⟨2, ![1, 16]⟩
abbrev S50000x1 : Shape := ⟨2, ![50000, 1]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x64, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .f32⟩
  | .hbm, ⟨61, _⟩ => ⟨S850000x1, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .f32⟩
  | .hbm, ⟨72, _⟩ => ⟨S50000x64, .f32⟩
  | .hbm, ⟨73, _⟩ => ⟨S50000x64, .f32⟩
  | .hbm, ⟨74, _⟩ => ⟨S50000x64, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x64, .f32⟩
  | .hbm, ⟨84, _⟩ => ⟨S850000x1, .f32⟩
  | .hbm, ⟨85, _⟩ => ⟨S850000x64, .f32⟩
  | .hbm, ⟨86, _⟩ => ⟨S850000x64, .f32⟩
  | .hbm, ⟨87, _⟩ => ⟨S_, .f32⟩
  | .hbm, ⟨88, _⟩ => ⟨S50000x64, .f32⟩
  | .hbm, ⟨89, _⟩ => ⟨S850000x1, .i32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S50000x64, .f32⟩
  | .hbm, ⟨96, _⟩ => ⟨S50000x64, .f32⟩
  | .hbm, ⟨97, _⟩ => ⟨S50000x16, .f32⟩
  | .hbm, ⟨98, _⟩ => ⟨S1x16, .f32⟩
  | .hbm, ⟨99, _⟩ => ⟨S50000x16, .f32⟩
  | .hbm, ⟨100, _⟩ => ⟨S50000x16, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S50000, .f32⟩
  | .hbm, ⟨105, _⟩ => ⟨S50000, .f32⟩
  | .hbm, ⟨106, _⟩ => ⟨S50000x1, .f32⟩
  | .hbm, ⟨107, _⟩ => ⟨S50000x16, .f32⟩
  | .hbm, ⟨108, _⟩ => ⟨S50000x16, .f32⟩
  | .hbm, ⟨109, _⟩ => ⟨S50000x16, .f32⟩
  | .hbm, ⟨110, _⟩ => ⟨S_, .f32⟩
  | .hbm, ⟨111, _⟩ => ⟨S50000, .f32⟩
  | .hbm, ⟨112, _⟩ => ⟨S50000x1, .f32⟩
  | .hbm, ⟨113, _⟩ => ⟨S50000x16, .f32⟩
  | .hbm, ⟨114, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_13 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x16_S50000x16_1_0_0_1_n_n_wf : DotDims.WF S50000x64 S64x16 S50000x16 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

class Facts : Prop extends Facts₀ where

variable [Facts]
-- ==== Proof.KRun.lean ====
/-
  The kernel program's run with its result named.

  The whole program is three launches among stretches of host operations. Every weakly fair execution terminates
  without a fault, the argument arrays end as launched, and the result array ends at the contents the last launch leaves:
  the value of the fold, through the host stretches and the three launches, of the launch memory, read at the result.
  Each host stretch maps the contents of the buffers it is entered with to those it leaves; each launch replaces its own arrays
  by what its write-backs leave and keeps every other buffer; the last thread state holds every buffer at the last of these
  contents, and the final memory is read against it.
-/
import proofs.«130925_j48610439856259_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents and each argument array as launched. -/
theorem run : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Named

end
-- ==== Proof.RLayer.lean ====
/-
  The reference's aggregation step as one function of its four inputs.

  Both graph-convolution layers aggregate the same way: every edge e takes row src(e) of the transformed features (a negative
  index wrapped by the row count first), scales it by the edge's normalisation, and adds it into row dst(e) of an array of
  zeros. `spread src dst nrm h` is that chain of host operations — a gather of rows, a product with the norms spread across
  the 64 columns, a scatter-add into zeros — as ONE function of the two index vectors, the norms and the features; the chain is
  never opened. Each layer's aggregate in the reference is `spread` of the same index vectors and norms (functions of the edge
  list only) and that layer's transformed features.
-/
import proofs.«130925_j48610439856259_1_alg».proof.Proof.ReadP

noncomputable section

namespace Cert.ReferenceIdeal.Layer

open Cert.ReferenceIdeal Cert.ReferenceIdeal.Gen Cert.ReferenceIdeal.ReadP Idealize.ShloMosaic

/-- Gather the rows `src` of `h`, scale each by its norm, add them into the rows `dst` of zeros. -/
def spread (src dst : IVec S850000 32) (nrm : FVec Ideal S850000 .f32) (h : FVec Ideal S50000x64 .f32) :
    FVec Ideal S50000x64 .f32 :=
  Host.scatterAdd (F := Ideal) scatter_S50000x64_S850000x1_S850000x64_1_0_0_1
    (broadcastInDim S50000x64 ![] bcast_S_S50000x64 (constant S_ .f32 0x00000000#32))
    (broadcastInDim S850000x1 ![0] bcast_S850000_S850000x1_0 dst)
    (mulf
      (Host.gather gather_S50000x64_S850000x1_S850000x64_1_0_n_n_0_1_164 h
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src)))
      (broadcastInDim S850000x64 ![0, 1] bcast_S850000x1_S850000x64_0_1
        (broadcastInDim S850000x1 ![0] bcast_S850000_S850000x1_0 nrm)))

/-- The first layer's aggregate. -/
theorem first_eq (x0 : FVec Ideal S50000x128 .f32) (x1 : IVec S2x800000 32) (x2 : FVec Ideal S128x64 .f32) :
    val_main_v45 (F := Ideal) x0 x1 x2
      = spread (val_main_v3 (F := Ideal) x1) (val_main_v6 (F := Ideal) x1) (val_main_v31 (F := Ideal) x1) (val_main_v32 (F := Ideal) x0 x2) := rfl

/-- The second layer's aggregate. -/
theorem second_eq (x0 : FVec Ideal S50000x128 .f32) (x1 : IVec S2x800000 32) (x2 : FVec Ideal S128x64 .f32) (x3 : FVec Ideal S64 .f32)
    (x4 : FVec Ideal S64x64 .f32) :
    val_main_v63 (F := Ideal) x0 x1 x2 x3 x4
      = spread (val_main_v3 (F := Ideal) x1) (val_main_v6 (F := Ideal) x1) (val_main_v31 (F := Ideal) x1)
          (val_main_v50 (F := Ideal) x0 x1 x2 x3 x4) := rfl

end Cert.ReferenceIdeal.Layer

end
-- ==== Proof.KEdges.lean ====
/-
  The edge index vectors, and the argument arrays, at the first launch's entry.

  Before the first launch the program builds, with host operations, the source and destination index vectors from the edge
  list: each of the list's two rows followed by the self loops 0 … 49999. Read through the fold of those operations over the
  launch memory, each is the reference's own stage function of the edge list; an argument array, which no operation writes,
  reads as launched.
-/
import proofs.«130925_j48610439856259_1_alg».proof.Proof.Gen.KernelIdeal.Frame
import proofs.«130925_j48610439856259_1_alg».proof.Proof.ReadP
import Idealize.ShloMosaic.Lib.StableHlo.Run

set_option maxRecDepth 16384

noncomputable section

namespace Cert.KernelIdeal.Edges

open Cert.KernelIdeal Cert.KernelIdeal.Gen Idealize.ShloMosaic Idealize.ShloMosaic.TcCoe Idealize.SL.Sem
open Cert.ReferenceIdeal.ReadP (val_main_v3 val_main_v6 val_main_v31)

variable (m : (ℓ : Loc nD τ sig) → Buf (Elt Ideal) ℓ) (ρ : Dev nD → PrngReg)

/-- Read a buffer at the first launch's entry: through the three stretches of host operations before it. -/
macro "read_entry0" : tactic => `(tactic| (
  show StableHlo.after hostOps0_2 (StableHlo.after hostOps0_1 (StableHlo.after hostOps0 (W0 _ _ _))) _ = _
  simp only [hostOps0, hostOps0_1, hostOps0_2]
  after_results_simp <;> rfl))

set_option maxHeartbeats 8000000 in
/-- The source index vector is the reference's. -/
theorem src0 (c : Dev nD) : W3 m ρ c (Proc.devRef .tc main_v3) = val_main_v3 (F := Ideal) (m ((c : Thread nD τ).loc main_arg1)) := by
  read_entry0

set_option maxHeartbeats 8000000 in
/-- The destination index vector is the reference's. -/
theorem dst0 (c : Dev nD) : W3 m ρ c (Proc.devRef .tc main_v6) = val_main_v6 (F := Ideal) (m ((c : Thread nD τ).loc main_arg1)) := by
  read_entry0

theorem arg0_0 (c : Dev nD) : W3 m ρ c (Proc.devRef .tc main_arg0) = m ((c : Thread nD τ).loc main_arg0) := by
  read_entry0

theorem arg0_2 (c : Dev nD) : W3 m ρ c (Proc.devRef .tc main_arg2) = m ((c : Thread nD τ).loc main_arg2) := by
  read_entry0

theorem arg0_3 (c : Dev nD) : W3 m ρ c (Proc.devRef .tc main_arg3) = m ((c : Thread nD τ).loc main_arg3) := by
  read_entry0

theorem arg0_4 (c : Dev nD) : W3 m ρ c (Proc.devRef .tc main_arg4) = m ((c : Thread nD τ).loc main_arg4) := by
  read_entry0

theorem arg0_5 (c : Dev nD) : W3 m ρ c (Proc.devRef .tc main_arg5) = m ((c : Thread nD τ).loc main_arg5) := by
  read_entry0

theorem arg0_6 (c : Dev nD) : W3 m ρ c (Proc.devRef .tc main_arg6) = m ((c : Thread nD τ).loc main_arg6) := by
  read_entry0

theorem arg0_7 (c : Dev nD) : W3 m ρ c (Proc.devRef .tc main_arg7) = m ((c : Thread nD τ).loc main_arg7) := by
  read_entry0

end Cert.KernelIdeal.Edges

end
-- ==== Proof.LibTRef.lean ====
/-
  A typed reference's two transports cancel.

  A typed reference to a host buffer carries the equation between the buffer's recorded type and the value's type; an
  operation stated over typed references carries contents of the value's type into the buffer's type on the way in and back
  on the way out. Carrying a value in and straight back out is the identity, whatever the equation's proof.
-/
import Idealize.ShloMosaic.Lib.StableHlo

namespace Cert.LibTRef

open Idealize.ShloMosaic Idealize.ShloMosaic.StableHlo

/-- Contents carried into a typed reference's buffer type and back out are the contents. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTRef
-- ==== Proof.KNorm.lean ====
/-
  The per-edge normalisation at the first launch's entry.

  The in-degree of a node is the scatter-add of ones over the destination vector; a node's factor is the inverse square root of
  its in-degree where that is positive and zero elsewhere; an edge's normalisation is the product of the factors at its two ends.
  The program computes this in three stretches of host operations — the selection of the factors is a call, whose three
  operations read and write through typed references —, and the value read after each stretch is the reference's own stage
  function of the edge list.
-/
import proofs.«130925_j48610439856259_1_alg».proof.Proof.Gen.KernelIdeal.Frame
import proofs.«130925_j48610439856259_1_alg».proof.Proof.ReadP
import proofs.«130925_j48610439856259_1_alg».proof.Proof.LibTRef
import Idealize.ShloMosaic.Lib.StableHlo.Run

set_option maxRecDepth 16384

noncomputable section

namespace Cert.KernelIdeal.Norm

open Cert.KernelIdeal Cert.KernelIdeal.Gen Idealize.ShloMosaic Idealize.ShloMosaic.TcCoe Idealize.SL.Sem
open Cert.ReferenceIdeal.ReadP (val_main_v3 val_main_v6 val_main_v31)

variable (m : (ℓ : Loc nD τ sig) → Buf (Elt Ideal) ℓ) (ρ : Dev nD → PrngReg)

/-! The normalisation is read stretch by stretch: the in-degree mask and the inverse square roots after the first stretch,
    their selection (a call's three operations over typed references) after the second, the two gathers and their product
    after the third. -/

/-- Read a buffer after the first stretch of host operations. -/
macro "read_stretch0" : tactic => `(tactic| (
  show StableHlo.after hostOps0 (W0 _ _ _) _ = _
  simp only [hostOps0]
  after_results_simp <;> rfl))

set_option maxHeartbeats 8000000 in
theorem src_a (c : Dev nD) : W1 m ρ c (Proc.devRef .tc main_v3) = val_main_v3 (F := Ideal) (m ((c : Thread nD τ).loc main_arg1)) := by
  read_stretch0

set_option maxHeartbeats 8000000 in
theorem dst_a (c : Dev nD) : W1 m ρ c (Proc.devRef .tc main_v6) = val_main_v6 (F := Ideal) (m ((c : Thread nD τ).loc main_arg1)) := by
  read_stretch0

set_option maxHeartbeats 8000000 in
/-- Which nodes have a positive in-degree. -/
theorem mask_a (c : Dev nD) : W1 m ρ c (Proc.devRef .tc main_v12) = Cert.ReferenceIdeal.ReadP.val_main_v12 (F := Ideal) (m ((c : Thread nD τ).loc main_arg1)) := by
  read_stretch0

set_option maxHeartbeats 8000000 in
/-- The inverse square roots of the in-degrees (clamped below). -/
theorem rsqrt_a (c : Dev nD) : W1 m ρ c (Proc.devRef .tc main_v15) = Cert.ReferenceIdeal.ReadP.val_main_v15 (F := Ideal) (m ((c : Thread nD τ).loc main_arg1)) := by
  read_stretch0

theorem zero_a (c : Dev nD) : W1 m ρ c (Proc.devRef .tc main_cst_3) = Cert.ReferenceIdeal.ReadP.val_main_cst_3 (F := Ideal) := by
  read_stretch0

/-- The call's three operations, read at its result from any contents: the selection of its operands' contents, each carried
    through its typed reference. -/
theorem call_read (X : Valuation τ sig (Elt Ideal)) :
    StableHlo.after hostOps0_1 X (Proc.devRef .tc main_v16)
      = (StableHlo.TRef.of (T := ⟨S50000, .f32⟩) main_v16).toBuf
          (select ((StableHlo.TRef.of (T := ⟨S50000, .i1⟩) main_v12).ofBuf (X (Proc.devRef .tc main_v12)))
            ((StableHlo.TRef.of (T := ⟨S50000, .f32⟩) main_v15).ofBuf (X (Proc.devRef .tc main_v15)))
            (broadcastInDim S50000 ![] bcast_S_S50000
              (id ((StableHlo.TRef.of (T := ⟨S_, .f32⟩) main_cst_3).ofBuf (X (Proc.devRef .tc main_cst_3)))))) := by
  simp only [hostOps0_1]
  after_results_simp
  simp only [Cert.LibTRef.ofBuf_toBuf]

/-- Carried through the typed references, the selection is the plain selection of the three values. -/
theorem call_value (a : (⟨Cert.ReferenceIdeal.S50000, .i1⟩ : BufTy).Contents (Elt Ideal))
    (b : (⟨Cert.ReferenceIdeal.S50000, .f32⟩ : BufTy).Contents (Elt Ideal))
    (z : (⟨Cert.ReferenceIdeal.S_, .f32⟩ : BufTy).Contents (Elt Ideal)) :
    (StableHlo.TRef.of (T := ⟨S50000, .f32⟩) main_v16).toBuf
        (select ((StableHlo.TRef.of (T := ⟨S50000, .i1⟩) main_v12).ofBuf a) ((StableHlo.TRef.of (T := ⟨S50000, .f32⟩) main_v15).ofBuf b)
          (broadcastInDim S50000 ![] bcast_S_S50000 (id ((StableHlo.TRef.of (T := ⟨S_, .f32⟩) main_cst_3).ofBuf z))))
      = select a b (broadcastInDim Cert.ReferenceIdeal.S50000 ![] Cert.ReferenceIdeal.Gen.bcast_S_S50000 (id z)) := rfl

/-- The reference's selection stage, spelt out. -/
theorem stage_eq (x1 : (⟨Cert.ReferenceIdeal.S2x800000, .i32⟩ : BufTy).Contents (Elt Ideal)) :
    Cert.ReferenceIdeal.ReadP.val_main_v16 (F := Ideal) x1
      = select (Cert.ReferenceIdeal.ReadP.val_main_v12 (F := Ideal) x1) (Cert.ReferenceIdeal.ReadP.val_main_v15 (F := Ideal) x1)
          (broadcastInDim Cert.ReferenceIdeal.S50000 ![] Cert.ReferenceIdeal.Gen.bcast_S_S50000
            (id (Cert.ReferenceIdeal.ReadP.val_main_cst_3 (F := Ideal)))) := rfl

/-- The selection: the inverse square root where the in-degree is positive, zero elsewhere. -/
theorem dinv_b (c : Dev nD) : W2 m ρ c (Proc.devRef .tc main_v16) = Cert.ReferenceIdeal.ReadP.val_main_v16 (F := Ideal) (m ((c : Thread nD τ).loc main_arg1)) := by
  show StableHlo.after hostOps0_1 (W1 m ρ c) (Proc.devRef .tc main_v16) = _
  rw [call_read (W1 m ρ c), mask_a m ρ c, rsqrt_a m ρ c, zero_a m ρ c]
  exact (call_value _ _ _).trans (stage_eq _).symm

theorem src_b (c : Dev nD) : W2 m ρ c (Proc.devRef .tc main_v3) = val_main_v3 (F := Ideal) (m ((c : Thread nD τ).loc main_arg1)) := by
  have h := src_a m ρ c
  show StableHlo.after hostOps0_1 (W1 m ρ c) (Proc.devRef .tc main_v3) = _
  generalize W1 m ρ c = X at h ⊢
  simp only [hostOps0_1]
  after_results_simp
  exact h

theorem dst_b (c : Dev nD) : W2 m ρ c (Proc.devRef .tc main_v6) = val_main_v6 (F := Ideal) (m ((c : Thread nD τ).loc main_arg1)) := by
  have h := dst_a m ρ c
  show StableHlo.after hostOps0_1 (W1 m ρ c) (Proc.devRef .tc main_v6) = _
  generalize W1 m ρ c = X at h ⊢
  simp only [hostOps0_1]
  after_results_simp
  exact h

set_option maxHeartbeats 8000000 in
/-- The per-edge normalisation is the reference's. -/
theorem nrm0 (c : Dev nD) : W3 m ρ c (Proc.devRef .tc main_v31) = val_main_v31 (F := Ideal) (m ((c : Thread nD τ).loc main_arg1)) := by
  have h16 := dinv_b m ρ c
  have h3 := src_b m ρ c
  have h6 := dst_b m ρ c
  show StableHlo.after hostOps0_2 (W2 m ρ c) (Proc.devRef .tc main_v31) = _
  generalize W2 m ρ c = Y at h16 h3 h6 ⊢
  simp only [hostOps0_2]
  after_results_simp
  rw [h16, h3, h6]
  rfl

end Cert.KernelIdeal.Norm

end
-- ==== Proof.KHost.lean ====
/-
  The host operations of the kernel program, read between its launches.

  Around the three launches the program computes, with host operations: from the edge list, the source and destination index
  vectors (the edges' two rows, each followed by the self loops 0 … 49999) and the per-edge normalisation (the inverse square
  roots of the in-degrees at the two ends, multiplied); after each of the first two launches, the aggregation of the
  launch's output over the edges; and the bias vectors re-laid as 1 × n rows for the launches to stage. The buffer contents at
  each boundary are a fold of these operations over the launch memory. Read at one buffer, the fold is that buffer's operation
  applied to its operands' contents — and these are the very operations the reference applies, so each value is stated as
  the reference's own stage function of the argument arrays (or as `spread` of the stage values), never opened. A buffer no
  operation of a stretch writes, and no launch writes back, keeps its contents across it.
-/
import proofs.«130925_j48610439856259_1_alg».proof.Proof.Gen.KernelIdeal.Frame
import proofs.«130925_j48610439856259_1_alg».proof.Proof.RLayer
import proofs.«130925_j48610439856259_1_alg».proof.Proof.KEdges
import proofs.«130925_j48610439856259_1_alg».proof.Proof.KNorm
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Cert.ReferenceIdeal.ReadP (val_main_v3 val_main_v6 val_main_v31)
open Cert.ReferenceIdeal.Layer (spread)

variable (m : (ℓ : Loc nD τ sig) → Buf (Elt Ideal) ℓ) (ρ : Dev nD → PrngReg)

/-- Read a buffer at the second launch's entry: through the stretch between the first two launches. -/
macro "read_entry1" : tactic => `(tactic| (
  show StableHlo.after hostOps1 (W4 _ _ _) _ = _
  simp only [hostOps1]
  after_results_simp <;> rfl))

/-- Read a buffer at the third launch's entry: through the stretch between the last two launches. -/
macro "read_entry2" : tactic => `(tactic| (
  show StableHlo.after hostOps2 (W6 _ _ _) _ = _
  simp only [hostOps2]
  after_results_simp <;> rfl))

/-! ## Across the first launch: only its output array changes -/

theorem across0_v3 (c : Dev nD) : W4 m ρ c (Proc.devRef .tc main_v3) = W3 m ρ c (Proc.devRef .tc main_v3) := W4_of_ne m ρ c main_v3 (by decide)

theorem across0_v6 (c : Dev nD) : W4 m ρ c (Proc.devRef .tc main_v6) = W3 m ρ c (Proc.devRef .tc main_v6) := W4_of_ne m ρ c main_v6 (by decide)

theorem across0_v31 (c : Dev nD) : W4 m ρ c (Proc.devRef .tc main_v31) = W3 m ρ c (Proc.devRef .tc main_v31) := W4_of_ne m ρ c main_v31 (by decide)

theorem across0_arg3 (c : Dev nD) : W4 m ρ c (Proc.devRef .tc main_arg3) = W3 m ρ c (Proc.devRef .tc main_arg3) := W4_of_ne m ρ c main_arg3 (by decide)

theorem across0_arg4 (c : Dev nD) : W4 m ρ c (Proc.devRef .tc main_arg4) = W3 m ρ c (Proc.devRef .tc main_arg4) := W4_of_ne m ρ c main_arg4 (by decide)

theorem across0_arg5 (c : Dev nD) : W4 m ρ c (Proc.devRef .tc main_arg5) = W3 m ρ c (Proc.devRef .tc main_arg5) := W4_of_ne m ρ c main_arg5 (by decide)

theorem across0_arg6 (c : Dev nD) : W4 m ρ c (Proc.devRef .tc main_arg6) = W3 m ρ c (Proc.devRef .tc main_arg6) := W4_of_ne m ρ c main_arg6 (by decide)

theorem across0_arg7 (c : Dev nD) : W4 m ρ c (Proc.devRef .tc main_arg7) = W3 m ρ c (Proc.devRef .tc main_arg7) := W4_of_ne m ρ c main_arg7 (by decide)

/-! ## At the second launch's entry -/

set_option maxHeartbeats 8000000 in
/-- The first layer's aggregate is `spread` of the vectors above and the first launch's output. -/
theorem agg1 (c : Dev nD) : W5 m ρ c (Proc.devRef .tc main_v45)
    = spread (W4 m ρ c (Proc.devRef .tc main_v3)) (W4 m ρ c (Proc.devRef .tc main_v6)) (W4 m ρ c (Proc.devRef .tc main_v31)) (W4 m ρ c (Proc.devRef .tc main_v32)) := by
  read_entry1

/-- The first bias, re-laid as a row. -/
theorem bias1 (c : Dev nD) : W5 m ρ c (Proc.devRef .tc main_v46) = shapeCast S1x64 (W4 m ρ c (Proc.devRef .tc main_arg3)) shapeCasts_S64_S1x64 := by
  read_entry1

theorem keep1_v3 (c : Dev nD) : W5 m ρ c (Proc.devRef .tc main_v3) = W4 m ρ c (Proc.devRef .tc main_v3) := by
  read_entry1

theorem keep1_v6 (c : Dev nD) : W5 m ρ c (Proc.devRef .tc main_v6) = W4 m ρ c (Proc.devRef .tc main_v6) := by
  read_entry1

theorem keep1_v31 (c : Dev nD) : W5 m ρ c (Proc.devRef .tc main_v31) = W4 m ρ c (Proc.devRef .tc main_v31) := by
  read_entry1

theorem keep1_arg4 (c : Dev nD) : W5 m ρ c (Proc.devRef .tc main_arg4) = W4 m ρ c (Proc.devRef .tc main_arg4) := by
  read_entry1

theorem keep1_arg5 (c : Dev nD) : W5 m ρ c (Proc.devRef .tc main_arg5) = W4 m ρ c (Proc.devRef .tc main_arg5) := by
  read_entry1

theorem keep1_arg6 (c : Dev nD) : W5 m ρ c (Proc.devRef .tc main_arg6) = W4 m ρ c (Proc.devRef .tc main_arg6) := by
  read_entry1

theorem keep1_arg7 (c : Dev nD) : W5 m ρ c (Proc.devRef .tc main_arg7) = W4 m ρ c (Proc.devRef .tc main_arg7) := by
  read_entry1

/-! ## Across the second launch -/

theorem across1_v3 (c : Dev nD) : W6 m ρ c (Proc.devRef .tc main_v3) = W5 m ρ c (Proc.devRef .tc main_v3) := W6_of_ne m ρ c main_v3 (by decide)

theorem across1_v6 (c : Dev nD) : W6 m ρ c (Proc.devRef .tc main_v6) = W5 m ρ c (Proc.devRef .tc main_v6) := W6_of_ne m ρ c main_v6 (by decide)

theorem across1_v31 (c : Dev nD) : W6 m ρ c (Proc.devRef .tc main_v31) = W5 m ρ c (Proc.devRef .tc main_v31) := W6_of_ne m ρ c main_v31 (by decide)

theorem across1_arg5 (c : Dev nD) : W6 m ρ c (Proc.devRef .tc main_arg5) = W5 m ρ c (Proc.devRef .tc main_arg5) := W6_of_ne m ρ c main_arg5 (by decide)

theorem across1_arg6 (c : Dev nD) : W6 m ρ c (Proc.devRef .tc main_arg6) = W5 m ρ c (Proc.devRef .tc main_arg6) := W6_of_ne m ρ c main_arg6 (by decide)

theorem across1_arg7 (c : Dev nD) : W6 m ρ c (Proc.devRef .tc main_arg7) = W5 m ρ c (Proc.devRef .tc main_arg7) := W6_of_ne m ρ c main_arg7 (by decide)

/-! ## At the third launch's entry -/

set_option maxHeartbeats 8000000 in
/-- The second layer's aggregate is `spread` of the same vectors and the second launch's output. -/
theorem agg2 (c : Dev nD) : W7 m ρ c (Proc.devRef .tc main_v60)
    = spread (W6 m ρ c (Proc.devRef .tc main_v3)) (W6 m ρ c (Proc.devRef .tc main_v6)) (W6 m ρ c (Proc.devRef .tc main_v31)) (W6 m ρ c (Proc.devRef .tc main_v47)) := by
  read_entry2

/-- The second bias, re-laid as a row. -/
theorem bias2 (c : Dev nD) : W7 m ρ c (Proc.devRef .tc main_v61) = shapeCast S1x64 (W6 m ρ c (Proc.devRef .tc main_arg5)) shapeCasts_S64_S1x64 := by
  read_entry2

/-- The output bias, re-laid as a row. -/
theorem bias3 (c : Dev nD) : W7 m ρ c (Proc.devRef .tc main_v62) = shapeCast S1x16 (W6 m ρ c (Proc.devRef .tc main_arg7)) shapeCasts_S16_S1x16 := by
  read_entry2

theorem keep2_arg6 (c : Dev nD) : W7 m ρ c (Proc.devRef .tc main_arg6) = W6 m ρ c (Proc.devRef .tc main_arg6) := by
  read_entry2

/-! ## The edge vectors and the arguments, at every later boundary -/

theorem src1 (c : Dev nD) : W4 m ρ c (Proc.devRef .tc main_v3) = val_main_v3 (F := Ideal) (m ((c : Thread nD τ).loc main_arg1)) := (across0_v3 m ρ c).trans (Edges.src0 m ρ c)
theorem src2 (c : Dev nD) : W6 m ρ c (Proc.devRef .tc main_v3) = val_main_v3 (F := Ideal) (m ((c : Thread nD τ).loc main_arg1)) :=
  (across1_v3 m ρ c).trans ((keep1_v3 m ρ c).trans (src1 m ρ c))

theorem dst1 (c : Dev nD) : W4 m ρ c (Proc.devRef .tc main_v6) = val_main_v6 (F := Ideal) (m ((c : Thread nD τ).loc main_arg1)) := (across0_v6 m ρ c).trans (Edges.dst0 m ρ c)
theorem dst2 (c : Dev nD) : W6 m ρ c (Proc.devRef .tc main_v6) = val_main_v6 (F := Ideal) (m ((c : Thread nD τ).loc main_arg1)) :=
  (across1_v6 m ρ c).trans ((keep1_v6 m ρ c).trans (dst1 m ρ c))

theorem nrm1 (c : Dev nD) : W4 m ρ c (Proc.devRef .tc main_v31) = val_main_v31 (F := Ideal) (m ((c : Thread nD τ).loc main_arg1)) := (across0_v31 m ρ c).trans (Norm.nrm0 m ρ c)
theorem nrm2 (c : Dev nD) : W6 m ρ c (Proc.devRef .tc main_v31) = val_main_v31 (F := Ideal) (m ((c : Thread nD τ).loc main_arg1)) :=
  (across1_v31 m ρ c).trans ((keep1_v31 m ρ c).trans (nrm1 m ρ c))

theorem arg1_3 (c : Dev nD) : W4 m ρ c (Proc.devRef .tc main_arg3) = m ((c : Thread nD τ).loc main_arg3) := (across0_arg3 m ρ c).trans (Edges.arg0_3 m ρ c)
theorem arg1_4 (c : Dev nD) : W5 m ρ c (Proc.devRef .tc main_arg4) = m ((c : Thread nD τ).loc main_arg4) :=
  (keep1_arg4 m ρ c).trans ((across0_arg4 m ρ c).trans (Edges.arg0_4 m ρ c))
theorem arg2_5 (c : Dev nD) : W6 m ρ c (Proc.devRef .tc main_arg5) = m ((c : Thread nD τ).loc main_arg5) :=
  (across1_arg5 m ρ c).trans ((keep1_arg5 m ρ c).trans ((across0_arg5 m ρ c).trans (Edges.arg0_5 m ρ c)))
theorem arg2_6 (c : Dev nD) : W6 m ρ c (Proc.devRef .tc main_arg6) = m ((c : Thread nD τ).loc main_arg6) :=
  (across1_arg6 m ρ c).trans ((keep1_arg6 m ρ c).trans ((across0_arg6 m ρ c).trans (Edges.arg0_6 m ρ c)))
theorem arg2_7 (c : Dev nD) : W6 m ρ c (Proc.devRef .tc main_arg7) = m ((c : Thread nD τ).loc main_arg7) :=
  (across1_arg7 m ρ c).trans ((keep1_arg7 m ρ c).trans ((across0_arg7 m ρ c).trans (Edges.arg0_7 m ρ c)))
theorem arg3_6 (c : Dev nD) : W7 m ρ c (Proc.devRef .tc main_arg6) = m ((c : Thread nD τ).loc main_arg6) := (keep2_arg6 m ρ c).trans (arg2_6 m ρ c)

end Cert.KernelIdeal.Host

end
-- ==== Proof.Spec.lean ====
/-
  What the three launches and the reference's dense layers compute, as plain functions on the extended reals.

  A graph-convolution network of two layers and a classifier. Each dense step is taken row by row:
  * `product x w`: the matrix product, entry (i, j) = Σ_k x(i, k) · w(k, j);
  * `affine row b w`: one row through "add the bias, clamp below at zero, multiply by the weights":
    entry j = Σ_k max(row k + b k, 0) · w(k, j);
  * `hidden a b w`: `affine` applied to every row of `a`;
  * `classes a b w bo`: every row of `a` through `affine`, the output bias added, and the result normalised by the
    row's soft maximum: with r the row of logits and M the largest of them (taken from −∞),
    entry j = exp(r j − M) / Σ_j' exp(r j' − M).
  The zero and the −∞ are kept as the float words the programs spell them with; nothing here evaluates them.
-/
import Idealize.ShloMosaic.PureOps.Ideal
import Idealize.ShloMosaic.Lib.ValueIdx
import Mathlib.Data.Finset.Fold

noncomputable section

namespace Cert.Spec

open Idealize.ShloMosaic Idealize.ShloMosaic.ValueIdx

/-- An r × c array of extended reals. -/
abbrev Mat (r c : Nat) : Type := (⟨2, ![r, c]⟩ : Shape).Idx → EReal

/-- The matrix product: entry (i, j) is the sum over k of x(i, k) · w(k, j). -/
def product {n p q : Nat} (x : Mat n p) (w : Mat p q) : Mat n q :=
  fun i => ∑ k : Fin p, x (ix2 (i 0) k) * w (ix2 k (i 1))

/-- One row through bias, clamp at zero, and weights: entry j is the sum over k of max(row k + b k, 0) · w(k, j). -/
def affine {p q : Nat} (row b : Fin p → EReal) (w : Mat p q) (j : Fin q) : EReal :=
  ∑ k : Fin p, max (row k + b k) (Ideal.ofBits .f32 0x00000000#32) * w (ix2 k j)

/-- Every row of `a` through `affine`. -/
def hidden {n p q : Nat} (a : Mat n p) (b : Fin p → EReal) (w : Mat p q) : Mat n q :=
  fun i => affine (fun k => a (ix2 (i 0) k)) b w (i 1)

/-- The largest entry of a row, taken from −∞. -/
def top {q : Nat} (r : Fin q → EReal) : EReal :=
  (Finset.univ : Finset (Fin q)).fold max (Ideal.ofBits .f32 0xFF800000#32) r

/-- A row's soft maximum at j: exp(r j − top r) over the sum of those exponentials along the row. -/
def share {q : Nat} (r : Fin q → EReal) (j : Fin q) : EReal :=
  Ideal.div (Ideal.exp (r j - top r)) (∑ j' : Fin q, Ideal.exp (r j' - top r))

/-- A row's logits: `affine` plus the output bias. -/
def logits {p q : Nat} (row b : Fin p → EReal) (w : Mat p q) (bo : Fin q → EReal) : Fin q → EReal :=
  fun j => affine row b w j + bo j

/-- Every row of `a` to its class shares. -/
def classes {n p q : Nat} (a : Mat n p) (b : Fin p → EReal) (w : Mat p q) (bo : Fin q → EReal) : Mat n q :=
  fun i => share (logits (fun k => a (ix2 (i 0) k)) b w bo) (i 1)

/-- Taking the larger of −∞ and a row's `top` changes nothing: `top` starts from −∞, so it is at least −∞. -/
theorem max_top {q : Nat} (r : Fin q → EReal) : max (Ideal.ofBits .f32 0xFF800000#32) (top r) = top r :=
  max_eq_right ((Finset.le_fold_max _).mpr (Or.inl le_rfl))

end Cert.Spec

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.Bodies.lean ====
/-
  The three launch bodies as functions of the blocks they load, on the extended reals.

  Each body loads whole blocks, computes one value, and stores it whole; the value is a pure term of the loads.
  * The first body is a matrix product into a zero accumulator: the `product` of its two blocks.
  * The second adds a bias row to every row of its block, clamps below at zero, and multiplies by the weights: `hidden`.
  * The third does the same into 16 columns, adds the output bias row, and normalises each row by its soft maximum: the row's
    largest entry is a lane maximum from −∞, re-laid as a column and spread across the 16 columns; the exponentials of the
    differences are summed along the row, the sum re-laid the same way, and each exponential divided by it: `classes`.
  A lane reduction at row p runs over the entries (p, j), j < 16; a column re-laid from a length-5000 vector reads the vector at
  the row; a 1 × b row spread down the rows reads the row at the column.
-/
import proofs.«130925_j48610439856259_1_alg».proof.Proof.Gen.KernelIdeal.Skeleton
import proofs.«130925_j48610439856259_1_alg».proof.Proof.Spec
import proofs.«130925_j48610439856259_1_alg».proof.Proof.LibDot
import proofs.«130925_j48610439856259_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bodies

open Cert.KernelIdeal Cert.KernelIdeal.Gen Idealize.ShloMosaic Idealize.ShloMosaic.ValueIdx Cert.Spec

/-! ## The first body -/

/-- A block of rows times the right array, into zero: the product of the two blocks. -/
theorem first_eq (x0 : FVec Ideal S5000x128 .f32) (x1 : FVec Ideal S128x64 .f32) :
    k0_pay1 (F := Ideal) x0 x1 = product (n := 5000) (p := 128) (q := 64) x0 x1 := by
  funext y
  show matmul dot_S5000x128_S128x64_S5000x64_1_0_0_1_n_n none x0 x1 (constant S5000x64 .f32 0x00000000#32) y
    = ∑ k : Fin 128, x0 (ix2 (y 0) k) * x1 (ix2 k (y 1))
  exact Cert.LibDot.matmul_zero_plain_apply dot_S5000x128_S128x64_S5000x64_1_0_0_1_n_n rfl rfl rfl rfl rfl rfl none x0 x1 y

/-! ## Bias and clamp: the first lines of the second and third bodies -/

/-- Every row of the block plus the bias row, clamped below at zero. -/
def act (x0 : FVec Ideal S5000x64 .f32) (x1 : FVec Ideal S1x64 .f32) : FVec Ideal S5000x64 .f32 :=
  maximumf (addf (shapeCast S5000x64 x0 shapeCasts_S5000x64_S5000x64)
      (broadcastTo S5000x64 (shapeCast S1x64 x1 shapeCasts_S1x64_S1x64) broadcasts_S1x64_S5000x64))
    (broadcast S5000x64 (Scalar.ofBits .f32 0x00000000#32))

theorem act_apply (x0 : FVec Ideal S5000x64 .f32) (x1 : FVec Ideal S1x64 .f32) (p : Fin 5000) (k : Fin 64) :
    act x0 x1 (ix2 p k) = max (x0 (ix2 p k) + x1 (ix2 (0 : Fin 1) k)) (Ideal.ofBits .f32 0x00000000#32) := by
  show max (shapeCast S5000x64 x0 shapeCasts_S5000x64_S5000x64 (ix2 p k)
      + broadcastTo S5000x64 (shapeCast S1x64 x1 shapeCasts_S1x64_S1x64) broadcasts_S1x64_S5000x64 (ix2 p k))
    (Ideal.ofBits .f32 0x00000000#32) = _
  rw [shapeCast_self, shapeCast_self, broadcastTo_1b_ab_apply]

/-! ## The second body -/

theorem second_eq (x0 : FVec Ideal S5000x64 .f32) (x1 : FVec Ideal S1x64 .f32) (x2 : FVec Ideal S64x64 .f32) :
    k1_pay1 (F := Ideal) x0 x1 x2 = hidden (n := 5000) (p := 64) (q := 64) x0 (fun k => x1 (ix2 (0 : Fin 1) k)) x2 := by
  funext y
  obtain ⟨p, j, rfl⟩ : ∃ (p : Fin 5000) (j : Fin 64), y = ix2 p j := ⟨y 0, y 1, eq_ix2 y⟩
  show matmul dot_S5000x64_S64x64_S5000x64_1_0_0_1_n_n none (act x0 x1) x2 (constant S5000x64 .f32 0x00000000#32) (ix2 p j)
    = ∑ k : Fin 64, max (x0 (ix2 p k) + x1 (ix2 (0 : Fin 1) k)) (Ideal.ofBits .f32 0x00000000#32) * x2 (ix2 k j)
  refine (Cert.LibDot.matmul_zero_plain_apply dot_S5000x64_S64x64_S5000x64_1_0_0_1_n_n rfl rfl rfl rfl rfl rfl none
    (act x0 x1) x2 (ix2 p j)).trans ?_
  refine Finset.sum_congr rfl fun k _ => ?_
  show act x0 x1 (ix2 p k) * x2 (ix2 k j) = _
  rw [act_apply]

/-! ## The third body -/

/-- The logits block: bias, clamp, weights, output bias. -/
def pre (x0 : FVec Ideal S5000x64 .f32) (x1 : FVec Ideal S1x64 .f32) (x2 : FVec Ideal S64x16 .f32) (x3 : FVec Ideal S1x16 .f32) :
    FVec Ideal S5000x16 .f32 :=
  addf (matmul dot_S5000x64_S64x16_S5000x16_1_0_0_1_n_n none (act x0 x1) x2 (constant S5000x16 .f32 0x00000000#32))
    (broadcastTo S5000x16 (shapeCast S1x16 x3 shapeCasts_S1x16_S1x16) broadcasts_S1x16_S5000x16)

theorem pre_apply (x0 : FVec Ideal S5000x64 .f32) (x1 : FVec Ideal S1x64 .f32) (x2 : FVec Ideal S64x16 .f32) (x3 : FVec Ideal S1x16 .f32)
    (p : Fin 5000) (j : Fin 16) :
    pre x0 x1 x2 x3 (ix2 p j)
      = logits (fun k => x0 (ix2 p k)) (fun k => x1 (ix2 (0 : Fin 1) k)) x2 (fun j => x3 (ix2 (0 : Fin 1) j)) j := by
  show matmul dot_S5000x64_S64x16_S5000x16_1_0_0_1_n_n none (act x0 x1) x2 (constant S5000x16 .f32 0x00000000#32) (ix2 p j)
      + broadcastTo S5000x16 (shapeCast S1x16 x3 shapeCasts_S1x16_S1x16) broadcasts_S1x16_S5000x16 (ix2 p j)
    = (∑ k : Fin 64, max (x0 (ix2 p k) + x1 (ix2 (0 : Fin 1) k)) (Ideal.ofBits .f32 0x00000000#32) * x2 (ix2 k j)) + x3 (ix2 (0 : Fin 1) j)
  rw [shapeCast_self, broadcastTo_1b_ab_apply]
  refine congrArg (· + x3 (ix2 (0 : Fin 1) j)) ?_
  refine (Cert.LibDot.matmul_zero_plain_apply dot_S5000x64_S64x16_S5000x16_1_0_0_1_n_n rfl rfl rfl rfl rfl rfl none
    (act x0 x1) x2 (ix2 p j)).trans ?_
  refine Finset.sum_congr rfl fun k _ => ?_
  show act x0 x1 (ix2 p k) * x2 (ix2 k j) = _
  rw [act_apply]

/-- The index a lane reduction reads at row p, lane j, is (p, j). -/
theorem lane (p : Fin 5000) (j : Fin 16) : reduces_S5000x16_S5000.lift (ix1 p) j = ix2 p j :=
  funext fun a => Fin.ext (by match a with | ⟨0, _⟩ => rfl | ⟨1, _⟩ => rfl)

/-- A per-row vector re-laid as a column and spread across the 16 columns reads, at (p, j), the vector at p. -/
theorem column_apply (v : FVec Ideal S5000 .f32) (p : Fin 5000) (j : Fin 16) :
    broadcastTo S5000x16 (shapeCast S5000x1 v shapeCasts_S5000_S5000x1) broadcasts_S5000x1_S5000x16 (ix2 p j) = v (ix1 p) :=
  (Cert.LibColumn.broadcastTo_a1_ab_apply _ broadcasts_S5000x1_S5000x16 p j).trans
    (Cert.LibColumn.shapeCast_a_a1_apply v shapeCasts_S5000_S5000x1 p 0)

/-- Each row's largest entry, spread across the row. -/
def rowTop (l : FVec Ideal S5000x16 .f32) : FVec Ideal S5000x16 .f32 :=
  broadcastTo S5000x16 (shapeCast S5000x1
    (multiReduction .maximumf [1] S5000 l 0xFF800000#32 reduces_S5000x16_S5000 (.inl rfl) rfl) shapeCasts_S5000_S5000x1)
    broadcasts_S5000x1_S5000x16

theorem rowTop_apply (l : FVec Ideal S5000x16 .f32) (p : Fin 5000) (j : Fin 16) :
    rowTop l (ix2 p j) = top (fun j' : Fin 16 => l (ix2 p j')) := by
  refine (column_apply _ p j).trans ?_
  refine (Ideal.multiReduction_maximumf_single l 0xFF800000#32 reduces_S5000x16_S5000 _ _ (ix1 p)).trans ?_
  exact congrArg (fun r : Fin 16 → EReal => (Finset.univ : Finset (Fin 16)).fold max (Ideal.ofBits .f32 0xFF800000#32) r)
    (funext fun j' => congrArg l (lane p j'))

/-- The exponentials of the entries less their row's largest. -/
def shifted (l : FVec Ideal S5000x16 .f32) : FVec Ideal S5000x16 .f32 := exp (subf l (rowTop l))

theorem shifted_apply (l : FVec Ideal S5000x16 .f32) (p : Fin 5000) (j : Fin 16) :
    shifted l (ix2 p j) = Ideal.exp (l (ix2 p j) - top (fun j' : Fin 16 => l (ix2 p j'))) := by
  show Ideal.exp (l (ix2 p j) - rowTop l (ix2 p j)) = _
  rw [rowTop_apply]

/-- Each row's sum, spread across the row. -/
def rowSum (e : FVec Ideal S5000x16 .f32) : FVec Ideal S5000x16 .f32 :=
  broadcastTo S5000x16 (shapeCast S5000x1
    (multiReduction .add [1] S5000 e 0x00000000#32 reduces_S5000x16_S5000 (.inl rfl) rfl) shapeCasts_S5000_S5000x1)
    broadcasts_S5000x1_S5000x16

theorem rowSum_apply (e : FVec Ideal S5000x16 .f32) (p : Fin 5000) (j : Fin 16) :
    rowSum e (ix2 p j) = ∑ j' : Fin 16, e (ix2 p j') := by
  refine (column_apply _ p j).trans ?_
  refine (Ideal.multiReduction_add_single e 0x00000000#32 reduces_S5000x16_S5000 _ _ (ix1 p)).trans ?_
  exact Finset.sum_congr rfl fun j' _ => congrArg e (lane p j')

/-- The soft maximum along rows. -/
def soft (l : FVec Ideal S5000x16 .f32) : FVec Ideal S5000x16 .f32 := divf (shifted l) (rowSum (shifted l))

theorem soft_apply (l : FVec Ideal S5000x16 .f32) (p : Fin 5000) (j : Fin 16) :
    soft l (ix2 p j) = share (fun j' : Fin 16 => l (ix2 p j')) j := by
  show Ideal.div (shifted l (ix2 p j)) (rowSum (shifted l) (ix2 p j)) = _
  rw [rowSum_apply, shifted_apply]
  simp only [shifted_apply]
  rfl

theorem third_split (x0 : FVec Ideal S5000x64 .f32) (x1 : FVec Ideal S1x64 .f32) (x2 : FVec Ideal S64x16 .f32) (x3 : FVec Ideal S1x16 .f32) :
    k2_pay1 (F := Ideal) x0 x1 x2 x3 = soft (pre x0 x1 x2 x3) := rfl

theorem third_eq (x0 : FVec Ideal S5000x64 .f32) (x1 : FVec Ideal S1x64 .f32) (x2 : FVec Ideal S64x16 .f32) (x3 : FVec Ideal S1x16 .f32) :
    k2_pay1 (F := Ideal) x0 x1 x2 x3
      = classes (n := 5000) (p := 64) (q := 16) x0 (fun k => x1 (ix2 (0 : Fin 1) k)) x2 (fun j => x3 (ix2 (0 : Fin 1) j)) := by
  rw [third_split]
  funext y
  obtain ⟨p, j, rfl⟩ : ∃ (p : Fin 5000) (j : Fin 16), y = ix2 p j := ⟨y 0, y 1, eq_ix2 y⟩
  refine (soft_apply _ p j).trans ?_
  exact congrArg (fun r : Fin 16 → EReal => share r j) (funext fun j' => pre_apply x0 x1 x2 x3 p j')

end Cert.KernelIdeal.Bodies

end
-- ==== Proof.First.lean ====
/-
  The first launch: a matrix product, ten blocks of rows at a time.

  Point t of the grid stages rows 5000·t … 5000·t + 4999 of the left array (all 128 columns) and the whole 128 × 64 right array,
  and writes their product back as the same rows of the output. Entry (r, j) of a block's product is the sum over k of
  left(r, k) · right(k, j), so what point t writes back is block t of ONE array, the `product` of the two arrays the launch
  finds. The ten blocks tile the 50000 rows, so the output ends as that product, whatever the launch was entered with.
-/
import proofs.«130925_j48610439856259_1_alg».proof.Proof.Gen.KernelIdeal.Frame
import proofs.«130925_j48610439856259_1_alg».proof.Proof.Bodies
import Idealize.ShloMosaic.Lib.Pipeline.Value
import Idealize.ShloMosaic.Lib.ValueIdx

set_option maxRecDepth 16384

noncomputable section

namespace Cert.KernelIdeal.First

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The sum over k of the products of two rows of 128 entries. -/
def dot (u v : Fin 128 → EReal) : EReal := ∑ k : Fin 128, u k * v k

/-- Where each window's block sits at point t: the left and the output blocks move together down the rows, every other
    block index is 0. -/
theorem block_at : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every block-row is some point's. -/
theorem block_onto : ∀ q : Fin 10, ∃ t : Fin cfg0.N, win0_2.index t = ![q.val, 0] :=
  (by decide +kernel : ∀ q : Fin 10, ∃ t : Fin grid0.N, win0_2.index t = ![q.val, 0])

/-- What point t writes back is block t of the product of the arrays the launch finds. -/
theorem flushed_eq (c : Dev nD) (t : Fin cfg0.N) :
    (dat0 V c).flushed 2 t = ((cfg0.win 2).blk t).view.read (Elt Ideal)
      (product (n := 50000) (p := 128) (q := 64) (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x64) origin]
  obtain ⟨e0, e1, e2, e3, e4⟩ := block_at t
  funext j
  show k0_pay1 (iblk0 V c 0 t) (iblk0 V c 1 t) j
    = product (n := 50000) (p := 128) (q := 64) (V c main_arg0) (V c main_arg2) (((cfg0.win 2).blk t).view.emb j)
  refine (congrFun (Bodies.first_eq (iblk0 V c 0 t) (iblk0 V c 1 t)) j).trans ?_
  have hrow : (fun k : Fin 128 => iblk0 V c 0 t (ix2 (j 0) k))
      = fun k : Fin 128 => V c main_arg0 (ix2 ((((cfg0.win 2).blk t).view.emb j) 0) k) := funext fun k => by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hcol : (fun k : Fin 128 => iblk0 V c 1 t (ix2 k (j 1)))
      = fun k : Fin 128 => V c main_arg2 (ix2 k ((((cfg0.win 2).blk t).view.emb j) 1)) := funext fun k => by
    show V c main_arg2 (((cfg0.win 1).blk t).view.emb (ix2 k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  show dot (fun k : Fin 128 => iblk0 V c 0 t (ix2 (j 0) k)) (fun k : Fin 128 => iblk0 V c 1 t (ix2 k (j 1)))
    = dot (fun k : Fin 128 => V c main_arg0 (ix2 ((((cfg0.win 2).blk t).view.emb j) 0) k))
        (fun k : Fin 128 => V c main_arg2 (ix2 k ((((cfg0.win 2).blk t).view.emb j) 1)))
  rw [hrow, hcol]

/-- An index of the output is in point t's block iff each coordinate is in the block's range on its axis. -/
theorem mem_block (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Row r of the output lies in the block of the point whose block-row is r / 5000. -/
theorem covered (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the launch is the product of the two arrays the launch was entered with. -/
theorem final (c : Dev nD) :
    (dat0 V c).arrAt 2 cfg0.N = product (n := 50000) (p := 128) (q := 64) (V c main_arg0) (V c main_arg2) :=
  (dat0 V c).arrAt_eq_of_cover 2 (product (n := 50000) (p := 128) (q := 64) (V c main_arg0) (V c main_arg2))
    (fun t _ => flushed_eq V c t) covered

end Cert.KernelIdeal.First

end
-- ==== Proof.Second.lean ====
/-
  The second launch: bias, clamp at zero, and a 64 × 64 weight product, ten blocks of rows at a time.

  Point t stages rows 5000·t … of the aggregated features, the 1 × 64 bias row and the 64 × 64 weights, and writes back the same
  rows of the output. A row of the result depends on that row of the features only, so what point t writes back is block t of
  ONE array, `hidden` of the arrays the launch finds; the ten blocks tile the rows.
-/
import proofs.«130925_j48610439856259_1_alg».proof.Proof.Gen.KernelIdeal.Frame
import proofs.«130925_j48610439856259_1_alg».proof.Proof.Bodies
import Idealize.ShloMosaic.Lib.Pipeline.Value
import Idealize.ShloMosaic.Lib.ValueIdx

set_option maxRecDepth 16384

noncomputable section

namespace Cert.KernelIdeal.Second

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the features and the output blocks move together down the rows, every other
    block index is 0. -/
theorem block_at : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every block-row is some point's. -/
theorem block_onto : ∀ q : Fin 10, ∃ t : Fin cfg1.N, win1_3.index t = ![q.val, 0] :=
  (by decide +kernel : ∀ q : Fin 10, ∃ t : Fin grid1.N, win1_3.index t = ![q.val, 0])

/-- What point t writes back is block t of `hidden` of the arrays the launch finds. -/
theorem flushed_eq (c : Dev nD) (t : Fin cfg1.N) :
    (dat1 V c).flushed 3 t = ((cfg1.win 3).blk t).view.read (Elt Ideal)
      (hidden (n := 50000) (p := 64) (q := 64) (V c main_v45) (fun k => V c main_v46 (ix2 (0 : Fin 1) k)) (V c main_arg4)) := by
  show (cfg1.win 3).cut (grid1.coords t) ((dat1 V c).after 3 t) = _
  rw [after1_3]
  unfold out1_3
  rw [View.canon_unit_zero origin]
  simp only [View.ld_unit_zero (S := S5000x64) origin, View.ld_unit_zero (S := S1x64) origin, View.ld_unit_zero (S := S64x64) origin]
  obtain ⟨e0, e1, e2, e3, e4, e5, e6⟩ := block_at t
  funext j
  show k1_pay1 (iblk1 V c 0 t) (iblk1 V c 1 t) (iblk1 V c 2 t) j
    = hidden (n := 50000) (p := 64) (q := 64) (V c main_v45) (fun k => V c main_v46 (ix2 (0 : Fin 1) k)) (V c main_arg4)
        (((cfg1.win 3).blk t).view.emb j)
  refine (congrFun (Bodies.second_eq (iblk1 V c 0 t) (iblk1 V c 1 t) (iblk1 V c 2 t)) j).trans ?_
  have hrow : (fun k : Fin 64 => iblk1 V c 0 t (ix2 (j 0) k))
      = fun k : Fin 64 => V c main_v45 (ix2 ((((cfg1.win 3).blk t).view.emb j) 0) k) := funext fun k => by
    show V c main_v45 (((cfg1.win 0).blk t).view.emb (ix2 (j 0) k)) = _
    refine congrArg (V c main_v45) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  have hbias : (fun k : Fin 64 => iblk1 V c 1 t (ix2 (0 : Fin 1) k)) = fun k : Fin 64 => V c main_v46 (ix2 (0 : Fin 1) k) :=
    funext fun k => by
    show V c main_v46 (((cfg1.win 1).blk t).view.emb (ix2 (0 : Fin 1) k)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  have hw : (iblk1 V c 2 t : Mat 64 64) = V c main_arg4 := funext fun y => by
    show V c main_arg4 (((cfg1.win 2).blk t).view.emb y) = _
    refine congrArg (V c main_arg4) (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  have hj : (j 1 : Fin 64) = ((((cfg1.win 3).blk t).view.emb j) 1 : Fin 64) := Fin.ext (by
    show (j 1).val = win1_3.index t (1 : Fin 2) * 64 + 1 * (j 1).val; omega)
  show affine (fun k : Fin 64 => iblk1 V c 0 t (ix2 (j 0) k)) (fun k : Fin 64 => iblk1 V c 1 t (ix2 (0 : Fin 1) k))
      (iblk1 V c 2 t : Mat 64 64) (j 1 : Fin 64)
    = affine (fun k : Fin 64 => V c main_v45 (ix2 ((((cfg1.win 3).blk t).view.emb j) 0) k))
      (fun k : Fin 64 => V c main_v46 (ix2 (0 : Fin 1) k)) (V c main_arg4) ((((cfg1.win 3).blk t).view.emb j) 1 : Fin 64)
  rw [hrow, hbias, hw, hj]

/-- An index of the output is in point t's block iff each coordinate is in the block's range on its axis. -/
theorem mem_block (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

/-- Row r of the output lies in the block of the point whose block-row is r / 5000. -/
theorem covered (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := block_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the launch is `hidden` of the arrays the launch was entered with. -/
theorem final (c : Dev nD) :
    (dat1 V c).arrAt 3 cfg1.N
      = hidden (n := 50000) (p := 64) (q := 64) (V c main_v45) (fun k => V c main_v46 (ix2 (0 : Fin 1) k)) (V c main_arg4) :=
  (dat1 V c).arrAt_eq_of_cover 3 _ (fun t _ => flushed_eq V c t) covered

end Cert.KernelIdeal.Second

end
-- ==== Proof.Third.lean ====
/-
  The third launch: bias, clamp, a 64 × 16 weight product, output bias, and the soft maximum along each row of 16, ten blocks
  of rows at a time.

  A row of the result depends on that row of the features only — the lane maximum and the lane sum run along the row —, so what
  point t writes back is block t of ONE array, `classes` of the arrays the launch finds; the ten blocks tile the rows.
-/
import proofs.«130925_j48610439856259_1_alg».proof.Proof.Gen.KernelIdeal.Frame
import proofs.«130925_j48610439856259_1_alg».proof.Proof.Bodies
import Idealize.ShloMosaic.Lib.Pipeline.Value
import Idealize.ShloMosaic.Lib.ValueIdx

set_option maxRecDepth 16384

noncomputable section

namespace Cert.KernelIdeal.Third

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the features and the output blocks move together down the rows, every other
    block index is 0. -/
theorem block_at : ∀ t : Fin cfg2.N, win2_0.index t (0 : Fin 2) = win2_4.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 :=
  (by decide +kernel : ∀ t : Fin grid2.N, _)

/-- Every block-row is some point's. -/
theorem block_onto : ∀ q : Fin 10, ∃ t : Fin cfg2.N, win2_4.index t = ![q.val, 0] :=
  (by decide +kernel : ∀ q : Fin 10, ∃ t : Fin grid2.N, win2_4.index t = ![q.val, 0])

/-- What point t writes back is block t of `classes` of the arrays the launch finds. -/
theorem flushed_eq (c : Dev nD) (t : Fin cfg2.N) :
    (dat2 V c).flushed 4 t = ((cfg2.win 4).blk t).view.read (Elt Ideal)
      (classes (n := 50000) (p := 64) (q := 16) (V c main_v60) (fun k => V c main_v61 (ix2 (0 : Fin 1) k)) (V c main_arg6)
        (fun j => V c main_v62 (ix2 (0 : Fin 1) j))) := by
  show (cfg2.win 4).cut (grid2.coords t) ((dat2 V c).after 4 t) = _
  rw [after2_4]
  unfold out2_4
  rw [View.canon_unit_zero origin]
  simp only [View.ld_unit_zero (S := S5000x64) origin, View.ld_unit_zero (S := S1x64) origin, View.ld_unit_zero (S := S64x16) origin,
    View.ld_unit_zero (S := S1x16) origin]
  obtain ⟨e0, e1, e2, e3, e4, e5, e6, e7, e8⟩ := block_at t
  funext j
  show k2_pay1 (iblk2 V c 0 t) (iblk2 V c 1 t) (iblk2 V c 2 t) (iblk2 V c 3 t) j
    = classes (n := 50000) (p := 64) (q := 16) (V c main_v60) (fun k => V c main_v61 (ix2 (0 : Fin 1) k)) (V c main_arg6)
        (fun j => V c main_v62 (ix2 (0 : Fin 1) j)) (((cfg2.win 4).blk t).view.emb j)
  refine (congrFun (Bodies.third_eq (iblk2 V c 0 t) (iblk2 V c 1 t) (iblk2 V c 2 t) (iblk2 V c 3 t)) j).trans ?_
  have hrow : (fun k : Fin 64 => iblk2 V c 0 t (ix2 (j 0) k))
      = fun k : Fin 64 => V c main_v60 (ix2 ((((cfg2.win 4).blk t).view.emb j) 0) k) := funext fun k => by
    show V c main_v60 (((cfg2.win 0).blk t).view.emb (ix2 (j 0) k)) = _
    refine congrArg (V c main_v60) (funext fun a => Fin.ext ?_)
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 64 + 1 * k.val = k.val; omega
  have hbias : (fun k : Fin 64 => iblk2 V c 1 t (ix2 (0 : Fin 1) k)) = fun k : Fin 64 => V c main_v61 (ix2 (0 : Fin 1) k) :=
    funext fun k => by
    show V c main_v61 (((cfg2.win 1).blk t).view.emb (ix2 (0 : Fin 1) k)) = _
    refine congrArg (V c main_v61) (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega
  have hw : (iblk2 V c 2 t : Mat 64 16) = V c main_arg6 := funext fun y => by
    show V c main_arg6 (((cfg2.win 2).blk t).view.emb y) = _
    refine congrArg (V c main_arg6) (funext fun a => Fin.ext ?_)
    match a with
    | ⟨0, _⟩ => show win2_2.index t (0 : Fin 2) * 64 + 1 * (y 0).val = (y 0).val; omega
    | ⟨1, _⟩ => show win2_2.index t (1 : Fin 2) * 16 + 1 * (y 1).val = (y 1).val; omega
  have hout : (fun j' : Fin 16 => iblk2 V c 3 t (ix2 (0 : Fin 1) j')) = fun j' : Fin 16 => V c main_v62 (ix2 (0 : Fin 1) j') :=
    funext fun j' => by
    show V c main_v62 (((cfg2.win 3).blk t).view.emb (ix2 (0 : Fin 1) j')) = _
    refine congrArg (V c main_v62) (funext fun a => Fin.ext ?_)
    match a with
    | ⟨0, _⟩ => show win2_3.index t (0 : Fin 2) * 1 + 1 * 0 = 0; omega
    | ⟨1, _⟩ => show win2_3.index t (1 : Fin 2) * 16 + 1 * j'.val = j'.val; omega
  have hj : (j 1 : Fin 16) = ((((cfg2.win 4).blk t).view.emb j) 1 : Fin 16) := Fin.ext (by
    show (j 1).val = win2_4.index t (1 : Fin 2) * 16 + 1 * (j 1).val; omega)
  show share (logits (fun k : Fin 64 => iblk2 V c 0 t (ix2 (j 0) k)) (fun k : Fin 64 => iblk2 V c 1 t (ix2 (0 : Fin 1) k))
      (iblk2 V c 2 t : Mat 64 16) (fun j' : Fin 16 => iblk2 V c 3 t (ix2 (0 : Fin 1) j'))) (j 1 : Fin 16)
    = share (logits (fun k : Fin 64 => V c main_v60 (ix2 ((((cfg2.win 4).blk t).view.emb j) 0) k))
      (fun k : Fin 64 => V c main_v61 (ix2 (0 : Fin 1) k)) (V c main_arg6) (fun j' : Fin 16 => V c main_v62 (ix2 (0 : Fin 1) j')))
      ((((cfg2.win 4).blk t).view.emb j) 1 : Fin 16)
  rw [hrow, hbias, hw, hout, hj]

/-- An index of the output is in point t's block iff each coordinate is in the block's range on its axis. -/
theorem mem_block (t : Fin cfg2.N) (i : S50000x16.Idx) :
    i ∈ ((cfg2.win 4).blk t).view.set ↔ ∀ a : Fin 2, win2_4.index t a * S5000x16.size a ≤ (i a).val ∧ (i a).val < win2_4.index t a * S5000x16.size a + S5000x16.size a := by
  show i ∈ ((View.whole main_v63).slice (win2_4.rect t)).set ↔ _
  rw [View.set_slice_whole, Rect.mem_set_unit]
  exact Iff.rfl

/-- Row r of the output lies in the block of the point whose block-row is r / 5000. -/
theorem covered (i : S50000x16.Idx) : ∃ t : Fin cfg2.N, (cfg2.win 4).flush t = true ∧ i ∈ ((cfg2.win 4).blk t).view.set := by
  have hi0 : (i 0).val < 50000 := (i 0).isLt
  have hi1 : (i 1).val < 16 := (i 1).isLt
  obtain ⟨t, ht⟩ := block_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_block]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 16 ≤ (i 1).val ∧ (i 1).val < win2_4.index t (1 : Fin 2) * 16 + 16; omega

/-- The output array after the launch is `classes` of the arrays the launch was entered with. -/
theorem final (c : Dev nD) :
    (dat2 V c).arrAt 4 cfg2.N
      = classes (n := 50000) (p := 64) (q := 16) (V c main_v60) (fun k => V c main_v61 (ix2 (0 : Fin 1) k)) (V c main_arg6)
          (fun j => V c main_v62 (ix2 (0 : Fin 1) j)) :=
  (dat2 V c).arrAt_eq_of_cover 4 _ (fun t _ => flushed_eq V c t) covered

end Cert.KernelIdeal.Third

end
-- ==== Proof.LibBcast.lean ====
/-
  Host broadcasts and a row reshape, read at an index.

  A vector of length `a` broadcast first to an `a × 1` column and then across `b` columns reads, at `(i, c)`, the vector
  at `i`; a vector of length `b` broadcast first to a `1 × b` row and then down `a` rows reads, at `(i, c)`, the vector
  at `c`; a scalar broadcast to any shape reads the scalar everywhere; and a `1 × n` array reshaped to length `n`
  reads, at `j`, the array at `(0, j)`.  A broadcast reads its operand at the coordinates its axes are sent to, and at
  `0` on an operand axis of extent one; when the extent of a broadcast axis happens to be one as well, the coordinate
  read is below one, hence `0`, and the two descriptions agree.  A reshape keeps the row-major position.
-/
import Idealize.ShloMosaic.Lib.Pipeline.Value
import Idealize.ShloMosaic.Lib.ValueIdx

namespace Cert.LibBcast

open Idealize.ShloMosaic Idealize.ShloMosaic.ValueIdx

/-- A vector broadcast to a column and then across `b` columns, read at `(i, c)`, is the vector at `i`. -/
theorem rows_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![a, 1]⟩ ![0] h1 v) (ix2 i c) = v (ix1 i) := by
  have hi : i.val < a := i.isLt
  have e2 := broadcastInDim_apply ![0, 1] h2 (broadcastInDim ⟨2, ![a, 1]⟩ ![0] h1 v) (ix2 i c) (ix2 i (0 : Fin 1)) (by
    intro d
    match d with
    | ⟨0, _⟩ =>
      show i.val = if a = 1 then 0 else i.val
      split
      · omega
      · rfl
    | ⟨1, _⟩ =>
      show 0 = if 1 = 1 then 0 else c.val
      exact (if_pos rfl).symm)
  have e1 := broadcastInDim_apply ![0] h1 v (ix2 i (0 : Fin 1)) (ix1 i) (by
    intro d
    match d with
    | ⟨0, _⟩ =>
      show i.val = if a = 1 then 0 else i.val
      split
      · omega
      · rfl)
  exact e2.trans e1

/-- A vector broadcast to a row and then down `a` rows, read at `(i, c)`, is the vector at `c`. -/
theorem cols_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![1, b]⟩ ![1] h1 v) (ix2 i c) = v (ix1 c) := by
  have hc : c.val < b := c.isLt
  have e2 := broadcastInDim_apply ![0, 1] h2 (broadcastInDim ⟨2, ![1, b]⟩ ![1] h1 v) (ix2 i c) (ix2 (0 : Fin 1) c) (by
    intro d
    match d with
    | ⟨0, _⟩ =>
      show 0 = if 1 = 1 then 0 else i.val
      exact (if_pos rfl).symm
    | ⟨1, _⟩ =>
      show c.val = if b = 1 then 0 else c.val
      split
      · omega
      · rfl)
  have e1 := broadcastInDim_apply ![1] h1 v (ix2 (0 : Fin 1) c) (ix1 c) (by
    intro d
    match d with
    | ⟨0, _⟩ =>
      show c.val = if b = 1 then 0 else c.val
      split
      · omega
      · rfl)
  exact e2.trans e1

/-- A scalar broadcast to any shape reads the scalar at every index. -/
theorem scalar_apply {α : Type} (T : Shape) (v : (⟨0, ![]⟩ : Shape).Idx → α)
    (h : (⟨0, ![]⟩ : Shape).BroadcastsInDim T (![] : Fin 0 → Fin T.rank)) (i : T.Idx) :
    broadcastInDim T ![] h v i = v ix0 :=
  broadcastInDim_apply ![] h v i ix0 fun d => d.elim0

/-- A `1 × n` array reshaped to length `n` reads, at `j`, the array at `(0, j)`: the same row-major position. -/
theorem row_reshape_apply {α : Type} {n : ℕ} (x : (⟨2, ![1, n]⟩ : Shape).Idx → α)
    (h : (⟨2, ![1, n]⟩ : Shape).ShapeCasts ⟨1, ![n]⟩) (j : Fin n) :
    shapeCast ⟨1, ![n]⟩ x h (ix1 j) = x (ix2 (0 : Fin 1) j) :=
  shapeCast_apply x h (ix1 j) (ix2 (0 : Fin 1) j) (by
    rw [Shape.rowMajor_val_two, Shape.rowMajor_val_one]
    show 0 * n + j.val = j.val
    omega)

end Cert.LibBcast
-- ==== Proof.RDense.lean ====
/-
  The reference's dense layers as the same functions of its arrays.

  Between the gathers and scatter-adds the reference computes, on whole arrays, what the launches compute block by block:
  * the first layer's transform is one matrix product: `product`;
  * the second layer's: the bias vector spread down the rows and added, a clamp below at zero, a product with the weights:
    `hidden`;
  * the classifier: the same into 16 columns, the output bias added, and a soft maximum along the rows — the row maximum as a
    reduction from −∞, once more compared with −∞ (which changes nothing: the reduction is already at least −∞), spread back
    over the row; the exponentials of the differences; their row sums from zero, spread back; the quotient: `classes`.
  A vector of length b spread to a 1 × b row and then down the rows reads the vector at the column; a per-row vector spread to a
  column and then across the columns reads it at the row; a reduction along the second axis at row p runs over the entries
  (p, j).
-/
import proofs.«130925_j48610439856259_1_alg».proof.Proof.ReadP
import proofs.«130925_j48610439856259_1_alg».proof.Proof.Spec
import proofs.«130925_j48610439856259_1_alg».proof.Proof.LibDot
import proofs.«130925_j48610439856259_1_alg».proof.Proof.LibBcast
import Idealize.ShloMosaic.Lib.ValueIdx
import Idealize.ShloMosaic.PureOps.Ideal.Laws

noncomputable section

namespace Cert.ReferenceIdeal.Dense

open Cert.ReferenceIdeal Cert.ReferenceIdeal.Gen Cert.ReferenceIdeal.ReadP Idealize.ShloMosaic Idealize.ShloMosaic.ValueIdx Cert.Spec

/-! ## The first layer's transform -/

theorem first_eq (x0 : FVec Ideal S50000x128 .f32) (x2 : FVec Ideal S128x64 .f32) :
    val_main_v32 (F := Ideal) x0 x2 = product (n := 50000) (p := 128) (q := 64) x0 x2 := by
  funext i
  show Host.dotGeneral dot_S50000x128_S128x64_S50000x64_1_0_0_1_n_n none x0 x2 i = ∑ k : Fin 128, x0 (ix2 (i 0) k) * x2 (ix2 k (i 1))
  exact Cert.LibDot.dotGeneral_plain_apply dot_S50000x128_S128x64_S50000x64_1_0_0_1_n_n rfl rfl rfl rfl rfl rfl none _ x0 x2 i

/-! ## Bias and clamp -/

/-- The rows of `a` plus the bias vector, clamped below at zero. -/
def act (a : FVec Ideal S50000x64 .f32) (b : FVec Ideal S64 .f32) : FVec Ideal S50000x64 .f32 :=
  maximumf (addf a (broadcastInDim S50000x64 ![0, 1] bcast_S1x64_S50000x64_0_1 (broadcastInDim S1x64 ![1] bcast_S64_S1x64_1 b)))
    (broadcastInDim S50000x64 ![] bcast_S_S50000x64 (constant S_ .f32 0x00000000#32))

theorem act_apply (a : FVec Ideal S50000x64 .f32) (b : FVec Ideal S64 .f32) (p : Fin 50000) (k : Fin 64) :
    act a b (ix2 p k) = max (a (ix2 p k) + b (ix1 k)) (Ideal.ofBits .f32 0x00000000#32) := by
  show max (a (ix2 p k) + broadcastInDim S50000x64 ![0, 1] bcast_S1x64_S50000x64_0_1 (broadcastInDim S1x64 ![1] bcast_S64_S1x64_1 b) (ix2 p k))
    (broadcastInDim S50000x64 ![] bcast_S_S50000x64 (constant (F := Ideal) S_ .f32 0x00000000#32) (ix2 p k)) = _
  rw [Cert.LibBcast.cols_apply, Cert.LibBcast.scalar_apply]
  rfl

/-! ## The second layer's transform -/

theorem second_eq (x0 : FVec Ideal S50000x128 .f32) (x1 : IVec S2x800000 32) (x2 : FVec Ideal S128x64 .f32) (x3 : FVec Ideal S64 .f32)
    (x4 : FVec Ideal S64x64 .f32) :
    val_main_v50 (F := Ideal) x0 x1 x2 x3 x4
      = hidden (n := 50000) (p := 64) (q := 64) (val_main_v45 (F := Ideal) x0 x1 x2) (fun k => x3 (ix1 k)) x4 := by
  funext i
  obtain ⟨p, j, rfl⟩ : ∃ (p : Fin 50000) (j : Fin 64), i = ix2 p j := ⟨i 0, i 1, eq_ix2 i⟩
  show Host.dotGeneral dot_S50000x64_S64x64_S50000x64_1_0_0_1_n_n none (act (val_main_v45 (F := Ideal) x0 x1 x2) x3) x4 (ix2 p j)
    = ∑ k : Fin 64, max (val_main_v45 (F := Ideal) x0 x1 x2 (ix2 p k) + x3 (ix1 k)) (Ideal.ofBits .f32 0x00000000#32) * x4 (ix2 k j)
  refine (Cert.LibDot.dotGeneral_plain_apply dot_S50000x64_S64x64_S50000x64_1_0_0_1_n_n rfl rfl rfl rfl rfl rfl none _
    (act (val_main_v45 (F := Ideal) x0 x1 x2) x3) x4 (ix2 p j)).trans ?_
  refine Finset.sum_congr rfl fun k _ => ?_
  show act (val_main_v45 (F := Ideal) x0 x1 x2) x3 (ix2 p k) * x4 (ix2 k j) = _
  rw [act_apply]

/-! ## The classifier -/

/-- The logits: bias, clamp, weights, output bias. -/
def pre (a : FVec Ideal S50000x64 .f32) (b : FVec Ideal S64 .f32) (w : FVec Ideal S64x16 .f32) (bo : FVec Ideal S16 .f32) :
    FVec Ideal S50000x16 .f32 :=
  addf (Host.dotGeneral dot_S50000x64_S64x16_S50000x16_1_0_0_1_n_n none (act a b) w)
    (broadcastInDim S50000x16 ![0, 1] bcast_S1x16_S50000x16_0_1 (broadcastInDim S1x16 ![1] bcast_S16_S1x16_1 bo))

theorem pre_apply (a : FVec Ideal S50000x64 .f32) (b : FVec Ideal S64 .f32) (w : FVec Ideal S64x16 .f32) (bo : FVec Ideal S16 .f32)
    (p : Fin 50000) (j : Fin 16) :
    pre a b w bo (ix2 p j) = logits (fun k => a (ix2 p k)) (fun k => b (ix1 k)) w (fun j => bo (ix1 j)) j := by
  show Host.dotGeneral dot_S50000x64_S64x16_S50000x16_1_0_0_1_n_n none (act a b) w (ix2 p j)
      + broadcastInDim S50000x16 ![0, 1] bcast_S1x16_S50000x16_0_1 (broadcastInDim S1x16 ![1] bcast_S16_S1x16_1 bo) (ix2 p j)
    = (∑ k : Fin 64, max (a (ix2 p k) + b (ix1 k)) (Ideal.ofBits .f32 0x00000000#32) * w (ix2 k j)) + bo (ix1 j)
  rw [Cert.LibBcast.cols_apply]
  refine congrArg (· + bo (ix1 j)) ?_
  refine (Cert.LibDot.dotGeneral_plain_apply dot_S50000x64_S64x16_S50000x16_1_0_0_1_n_n rfl rfl rfl rfl rfl rfl none _
    (act a b) w (ix2 p j)).trans ?_
  refine Finset.sum_congr rfl fun k _ => ?_
  show act a b (ix2 p k) * w (ix2 k j) = _
  rw [act_apply]

/-- Each row's largest entry (from −∞, and once more against −∞). -/
def rowTop (l : FVec Ideal S50000x16 .f32) : FVec Ideal S50000 .f32 :=
  maximumf (broadcastInDim S50000 ![] bcast_S_S50000 (constant S_ .f32 0xFF800000#32))
    (Host.reduce FloatOps.maximumf l (constant S_ .f32 0xFF800000#32) reducesTo_S50000x16_S50000_d1 h_S_)

/-- A per-row vector spread over the rows' 16 entries. -/
def spreadRow (v : FVec Ideal S50000 .f32) : FVec Ideal S50000x16 .f32 :=
  broadcastInDim S50000x16 ![0, 1] bcast_S50000x1_S50000x16_0_1 (broadcastInDim S50000x1 ![0] bcast_S50000_S50000x1_0 v)

/-- The exponentials of the entries less their row's largest. -/
def shifted (l : FVec Ideal S50000x16 .f32) : FVec Ideal S50000x16 .f32 := Host.exp (subf l (spreadRow (rowTop l)))

/-- Each row's sum from zero. -/
def rowSum (e : FVec Ideal S50000x16 .f32) : FVec Ideal S50000 .f32 :=
  Host.reduceAdd e (constant S_ .f32 0x00000000#32) reducesTo_S50000x16_S50000_d1 h_S_

/-- The soft maximum along rows. -/
def soft (l : FVec Ideal S50000x16 .f32) : FVec Ideal S50000x16 .f32 :=
  Host.divf (shifted l) (spreadRow (rowSum (shifted l)))

/-- The reference's last stage is the soft maximum of its logits. -/
theorem third_split (x0 : FVec Ideal S50000x128 .f32) (x1 : IVec S2x800000 32) (x2 : FVec Ideal S128x64 .f32) (x3 : FVec Ideal S64 .f32)
    (x4 : FVec Ideal S64x64 .f32) (x5 : FVec Ideal S64 .f32) (x6 : FVec Ideal S64x16 .f32) (x7 : FVec Ideal S16 .f32) :
    val_main_v82 (F := Ideal) x0 x1 x2 x3 x4 x5 x6 x7 = soft (pre (val_main_v63 (F := Ideal) x0 x1 x2 x3 x4) x5 x6 x7) := by
  unfold val_main_v82 val_main_v81 val_main_v80 val_main_v79 val_main_v78 val_main_v77 val_main_v76 val_main_v75 val_main_v74
    val_main_v73 val_main_v72 val_main_v71 val_main_v70 val_main_v69 val_main_v68 val_main_v67 val_main_v66 val_main_v65 val_main_v64
    val_main_call2_v0 val_main_call2_cst val_main_cst_13 val_main_cst_14 val_main_cst_15
    soft shifted rowSum spreadRow rowTop pre act
  rfl

/-- A reduction along the second axis keeps the rows. -/
theorem keepsRows : S50000x16.Reduces [1] S50000 := by decide

/-- The index such a reduction reads at row p, position j, is (p, j). -/
theorem lane (p : Fin 50000) (j : Fin 16) : keepsRows.lift (ix1 p) j = ix2 p j :=
  funext fun a => Fin.ext (by match a with | ⟨0, _⟩ => rfl | ⟨1, _⟩ => rfl)

theorem rowTop_apply (l : FVec Ideal S50000x16 .f32) (p : Fin 50000) :
    rowTop l (ix1 p) = top (fun j : Fin 16 => l (ix2 p j)) := by
  unfold rowTop
  rw [maximumf_apply, Cert.LibBcast.scalar_apply, constant_apply,
    Host.reduce_eq_fold_single FloatOps.maximumf l _ reducesTo_S50000x16_S50000_d1 keepsRows h_S_ (ix1 p), constant_apply]
  have hf : (Finset.univ : Finset (Fin (S50000x16.size 1))).fold FloatOps.maximumf
        (Ideal.ofBits .f32 0xFF800000#32) (l ∘ keepsRows.lift (ix1 p))
      = top (fun j : Fin 16 => l (ix2 p j)) :=
    congrArg (fun r : Fin 16 → EReal => (Finset.univ : Finset (Fin 16)).fold max (Ideal.ofBits .f32 0xFF800000#32) r)
      (funext fun j => congrArg l (lane p j))
  rw [hf]
  exact max_top _

theorem rowSum_apply (e : FVec Ideal S50000x16 .f32) (p : Fin 50000) : rowSum e (ix1 p) = ∑ j : Fin 16, e (ix2 p j) := by
  unfold rowSum
  simp only [Host.reduceAdd, Ideal.hostReduceAdd_def]
  rw [Ideal.hostReduceAdd_single reducesTo_S50000x16_S50000_d1 keepsRows, constant_apply, Ideal.ofBits_zero_f32, zero_add]
  exact Finset.sum_congr rfl fun j _ => congrArg e (lane p j)

-- from here on a row's largest entry and a row's sum are used through the two lemmas above only
attribute [irreducible] rowTop rowSum

theorem spreadRow_apply (v : FVec Ideal S50000 .f32) (p : Fin 50000) (j : Fin 16) : spreadRow v (ix2 p j) = v (ix1 p) :=
  Cert.LibBcast.rows_apply v bcast_S50000_S50000x1_0 bcast_S50000x1_S50000x16_0_1 p j

theorem shifted_apply (l : FVec Ideal S50000x16 .f32) (p : Fin 50000) (j : Fin 16) :
    shifted l (ix2 p j) = Ideal.exp (l (ix2 p j) - top (fun j' : Fin 16 => l (ix2 p j'))) := by
  show Ideal.exp (l (ix2 p j) - spreadRow (rowTop l) (ix2 p j)) = _
  rw [spreadRow_apply, rowTop_apply]

theorem soft_apply (l : FVec Ideal S50000x16 .f32) (p : Fin 50000) (j : Fin 16) :
    soft l (ix2 p j) = share (fun j' : Fin 16 => l (ix2 p j')) j := by
  show Ideal.div (shifted l (ix2 p j)) (spreadRow (rowSum (shifted l)) (ix2 p j)) = _
  rw [spreadRow_apply, rowSum_apply, shifted_apply]
  simp only [shifted_apply]
  rfl

theorem third_eq (x0 : FVec Ideal S50000x128 .f32) (x1 : IVec S2x800000 32) (x2 : FVec Ideal S128x64 .f32) (x3 : FVec Ideal S64 .f32)
    (x4 : FVec Ideal S64x64 .f32) (x5 : FVec Ideal S64 .f32) (x6 : FVec Ideal S64x16 .f32) (x7 : FVec Ideal S16 .f32) :
    val_main_v82 (F := Ideal) x0 x1 x2 x3 x4 x5 x6 x7
      = classes (n := 50000) (p := 64) (q := 16) (val_main_v63 (F := Ideal) x0 x1 x2 x3 x4) (fun k => x5 (ix1 k)) x6 (fun j => x7 (ix1 j)) := by
  rw [third_split]
  funext i
  obtain ⟨p, j, rfl⟩ : ∃ (p : Fin 50000) (j : Fin 16), i = ix2 p j := ⟨i 0, i 1, eq_ix2 i⟩
  refine (soft_apply _ p j).trans ?_
  exact congrArg (fun r : Fin 16 → EReal => share r j) (funext fun j' => pre_apply _ x5 x6 x7 p j')

end Cert.ReferenceIdeal.Dense

end
-- ==== Proof.Whole.lean ====
/-
  The kernel program's result as the reference's function of the argument arrays.

  Walking the program from its launch memory: the first launch leaves the product of the node features with the first weights;
  the host aggregates it over the edges; the second launch adds the first bias to the aggregate, clamps it at zero and
  multiplies by the second weights; the host aggregates again; the third launch adds the second bias, clamps, multiplies by the
  output weights, adds the output bias and takes the soft maximum along each row. At every step the array is the reference's
  own stage value: the launches compute, block by block, the `product`, `hidden` and `classes` the reference computes on
  whole arrays, and the aggregation is the same `spread` of the same edge vectors. A bias vector re-laid as a 1 × n row reads,
  at (0, k), the vector at k.
-/
import proofs.«130925_j48610439856259_1_alg».proof.Proof.KRun
import proofs.«130925_j48610439856259_1_alg».proof.Proof.KHost
import proofs.«130925_j48610439856259_1_alg».proof.Proof.First
import proofs.«130925_j48610439856259_1_alg».proof.Proof.Second
import proofs.«130925_j48610439856259_1_alg».proof.Proof.Third
import proofs.«130925_j48610439856259_1_alg».proof.Proof.RDense
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Spec
open Cert.ReferenceIdeal.ReadP (val_main_v32 val_main_v45 val_main_v50 val_main_v63 val_main_v82)

variable (m : (ℓ : Loc nD τ sig) → Buf (Elt Ideal) ℓ) (ρ : Dev nD → PrngReg)

/-- The first launch's output is the reference's first transform. -/
theorem out1 (c : Dev nD) : W4 m ρ c (Proc.devRef .tc main_v32) = val_main_v32 (F := Ideal) (m ((c : Thread nD τ).loc main_arg0)) (m ((c : Thread nD τ).loc main_arg2)) := by
  refine (W4_arr m ρ c 2).trans ?_
  refine (First.final (V3 m ρ) c).trans ?_
  show product (n := 50000) (p := 128) (q := 64) (W3 m ρ c (Proc.devRef .tc main_arg0)) (W3 m ρ c (Proc.devRef .tc main_arg2)) = _
  rw [Edges.arg0_0 m ρ c, Edges.arg0_2 m ρ c]
  exact (Cert.ReferenceIdeal.Dense.first_eq _ _).symm

/-- The first aggregate is the reference's. -/
theorem agg1 (c : Dev nD) : W5 m ρ c (Proc.devRef .tc main_v45) = val_main_v45 (F := Ideal) (m ((c : Thread nD τ).loc main_arg0)) (m ((c : Thread nD τ).loc main_arg1)) (m ((c : Thread nD τ).loc main_arg2)) := by
  rw [Host.agg1 m ρ c, Host.src1 m ρ c, Host.dst1 m ρ c, Host.nrm1 m ρ c, out1 m ρ c]
  exact (Cert.ReferenceIdeal.Layer.first_eq _ _ _).symm

/-- The second launch's output is the reference's second transform. -/
theorem out2 (c : Dev nD) : W6 m ρ c (Proc.devRef .tc main_v47)
    = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ?_
  refine (Second.final (V5 m ρ) c).trans ?_
  show hidden (n := 50000) (p := 64) (q := 64) (W5 m ρ c (Proc.devRef .tc main_v45))
    (fun k : Fin 64 => W5 m ρ c (Proc.devRef .tc main_v46) (ix2 (0 : Fin 1) k)) (W5 m ρ c (Proc.devRef .tc main_arg4)) = _
  have hb : (fun k : Fin 64 => W5 m ρ c (Proc.devRef .tc main_v46) (ix2 (0 : Fin 1) k)) = fun k : Fin 64 => (m ((c : Thread nD τ).loc main_arg3)) (ix1 k) :=
    funext fun k => by
    rw [Host.bias1 m ρ c, Host.arg1_3 m ρ c]
    exact shapeCast_a_1a_apply _ _ 0 k
  rw [agg1 m ρ c, hb, Host.arg1_4 m ρ c]
  exact (Cert.ReferenceIdeal.Dense.second_eq _ _ _ _ _).symm

/-- The second aggregate is the reference's. -/
theorem agg2 (c : Dev nD) : W7 m ρ c (Proc.devRef .tc main_v60)
    = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Host.agg2 m ρ c, Host.src2 m ρ c, Host.dst2 m ρ c, Host.nrm2 m ρ c, out2 m ρ c]
  exact (Cert.ReferenceIdeal.Layer.second_eq _ _ _ _ _).symm

/-- The third launch's output, the program's result, is the reference's result. -/
theorem result (c : Dev nD) : W8 m ρ c (Proc.devRef .tc main_v63)
    = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 4).trans ?_
  refine (Third.final (V7 m ρ) c).trans ?_
  show classes (n := 50000) (p := 64) (q := 16) (W7 m ρ c (Proc.devRef .tc main_v60))
    (fun k : Fin 64 => W7 m ρ c (Proc.devRef .tc main_v61) (ix2 (0 : Fin 1) k)) (W7 m ρ c (Proc.devRef .tc main_arg6))
    (fun j : Fin 16 => W7 m ρ c (Proc.devRef .tc main_v62) (ix2 (0 : Fin 1) j)) = _
  have hb : (fun k : Fin 64 => W7 m ρ c (Proc.devRef .tc main_v61) (ix2 (0 : Fin 1) k)) = fun k : Fin 64 => (m ((c : Thread nD τ).loc main_arg5)) (ix1 k) :=
    funext fun k => by
    rw [Host.bias2 m ρ c, Host.arg2_5 m ρ c]
    exact shapeCast_a_1a_apply _ _ 0 k
  have ho : (fun j : Fin 16 => W7 m ρ c (Proc.devRef .tc main_v62) (ix2 (0 : Fin 1) j)) = fun j : Fin 16 => (m ((c : Thread nD τ).loc main_arg7)) (ix1 j) :=
    funext fun j => by
    rw [Host.bias3 m ρ c, Host.arg2_7 m ρ c]
    exact shapeCast_a_1a_apply _ _ 0 j
  rw [agg2 m ρ c, hb, Host.arg3_6 m ρ c, ho]
  exact (Cert.ReferenceIdeal.Dense.third_eq _ _ _ _ _ _ _ _).symm

/-- Every weakly fair execution of the kernel program terminates, nothing faulting, with the result at the reference's
    function of the argument arrays and the arguments as launched. -/
theorem run : θ_run defs (onTc (τ := τ) (main (F := Ideal))) ⟨m, fun _ => 0, ρ⟩ (fun r => ∀ c : Dev nD,
      r.2.mem ((c.tc : Thread nD τ).loc main_v63)
        = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Cert.KernelIdeal.Named.run m ρ)

end Cert.KernelIdeal.Whole

end
-- ==== Proof.lean ====
/-
  A two-layer graph-convolution network with a soft-maximum classifier: the kernel program against its reference, on the
  extended reals.

  Both programs build, from the edge list, the same source and destination index vectors (self loops appended) and the same
  symmetric normalisation; both aggregate each layer's transformed features over the edges with the same gather, scaling and
  scatter-add. They differ only in where the dense steps run. The reference computes on whole 50000-row arrays: a matrix
  product; a bias, a clamp at zero and a second product; a bias, a clamp, a third product, an output bias and a soft maximum
  along rows. The kernel program runs each of these three steps as a launch over ten blocks of 5000 rows. A row of each result
  depends on that row of the input only, and a block's product into a zero accumulator is the plain sum over the contracted
  coordinate, so each launch leaves, block by block, exactly the array the reference computes; the reference's second comparison
  of the row maximum with −∞ changes nothing. No law of arithmetic beyond this is used: the two results are the same term of
  the arguments, and the precondition is not needed.

  The three frames: the two kernel programs' are the launch theorem over their segments; the reference's is its run with the
  result forgotten. The ideal pass rewrote nothing, so there is nothing to preserve.
-/
import proofs.«130925_j48610439856259_1_alg».proof.Defs
import proofs.«130925_j48610439856259_1_alg».proof.Proof.Gen.Kernel
import proofs.«130925_j48610439856259_1_alg».proof.Proof.Gen.Kernel.Skeleton
import proofs.«130925_j48610439856259_1_alg».proof.Proof.Gen.Kernel.Launch
import proofs.«130925_j48610439856259_1_alg».proof.Proof.Gen.Kernel.Points
import proofs.«130925_j48610439856259_1_alg».proof.Proof.Gen.Kernel.Frame
import proofs.«130925_j48610439856259_1_alg».proof.Proof.Gen.KernelIdeal
import proofs.«130925_j48610439856259_1_alg».proof.Proof.Gen.KernelIdeal.Skeleton
import proofs.«130925_j48610439856259_1_alg».proof.Proof.Gen.KernelIdeal.Launch
import proofs.«130925_j48610439856259_1_alg».proof.Proof.Gen.KernelIdeal.Points
import proofs.«130925_j48610439856259_1_alg».proof.Proof.Gen.KernelIdeal.Frame
import proofs.«130925_j48610439856259_1_alg».proof.Proof.Gen.ReferenceIdeal
import proofs.«130925_j48610439856259_1_alg».proof.Proof.Gen.Pre_finite_inputs
import proofs.«130925_j48610439856259_1_alg».proof.Proof.RunP
import proofs.«130925_j48610439856259_1_alg».proof.Proof.ReadP
import proofs.«130925_j48610439856259_1_alg».proof.Proof.Whole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end with the reference's function of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v82_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
